-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x2x10 : Shape := ⟨3, ![524288, 2, 10]⟩
abbrev S13 : Shape := ⟨1, ![13]⟩
abbrev S13x10 : Shape := ⟨2, ![13, 10]⟩
abbrev S2x10x13 : Shape := ⟨3, ![2, 10, 13]⟩
abbrev S_ : Shape := ⟨0, ![]⟩

class Facts : Prop where
  bcast_S_S524288x2x10 : S_.BroadcastsInDim S524288x2x10 (![] : Fin 0 → Fin S524288x2x10.rank)
  reducesTo_S524288x2x10_S_d0_1_2 : S524288x2x10.ReducesTo [0, 1, 2] S_
  h_S_ : 0 < S_.numel
  bcast_S_S13 : S_.BroadcastsInDim S13 (![] : Fin 0 → Fin S13.rank)
  reducesTo_S13_S_d0 : S13.ReducesTo [0] S_
  bcast_S_S13x10 : S_.BroadcastsInDim S13x10 (![] : Fin 0 → Fin S13x10.rank)
  reducesTo_S13x10_S_d0_1 : S13x10.ReducesTo [0, 1] S_
  bcast_S_S2x10x13 : S_.BroadcastsInDim S2x10x13 (![] : Fin 0 → Fin S2x10x13.rank)
  reducesTo_S2x10x13_S_d0_1_2 : S2x10x13.ReducesTo [0, 1, 2] S_

variable [Facts]

def fn_part1 {F : FTy → Type} [FloatOps F] (main_arg4 : FVec F S13x10 .f32) (main_arg5 : FVec F S13x10 .f32) (main_arg6 : FVec F S2x10x13 .f32) (main_v13 : IVec S_ 1) (main_v16 : IVec S13x10 1) : IVec S_ 1 :=
  let main_c_5 : IVec S_ 1 := constantI S_ 1 1#1
  let main_v17 : IVec S_ 1 := (fun x v => Host.reduce IntOp.andi x v reducesTo_S13x10_S_d0_1 h_S_) main_v16 main_c_5
  let main_v18 : IVec S_ 1 := andi main_v13 main_v17
  let main_v19 : FVec F S13x10 .f32 := Host.absf main_arg4
  let main_cst_6 : FVec F S_ .f32 := constant S_ .f32 0x7F800000#32
  let main_v20 : FVec F S13x10 .f32 := broadcastInDim S13x10 ![] bcast_S_S13x10 main_cst_6
  let main_v21 : IVec S13x10 1 := cmpf .olt main_v19 main_v20
  let main_c_7 : IVec S_ 1 := constantI S_ 1 1#1
  let main_v22 : IVec S_ 1 := (fun x v => Host.reduce IntOp.andi x v reducesTo_S13x10_S_d0_1 h_S_) main_v21 main_c_7
  let main_v23 : IVec S_ 1 := andi main_v18 main_v22
  let main_v24 : FVec F S13x10 .f32 := Host.absf main_arg5
  let main_cst_8 : FVec F S_ .f32 := constant S_ .f32 0x7F800000#32
  let main_v25 : FVec F S13x10 .f32 := broadcastInDim S13x10 ![] bcast_S_S13x10 main_cst_8
  let main_v26 : IVec S13x10 1 := cmpf .olt main_v24 main_v25
  let main_c_9 : IVec S_ 1 := constantI S_ 1 1#1
  let main_v27 : IVec S_ 1 := (fun x v => Host.reduce IntOp.andi x v reducesTo_S13x10_S_d0_1 h_S_) main_v26 main_c_9
  let main_v28 : IVec S_ 1 := andi main_v23 main_v27
  let main_v29 : FVec F S2x10x13 .f32 := Host.absf main_arg6
  let main_cst_10 : FVec F S_ .f32 := constant S_ .f32 0x7F800000#32
  let main_v30 : FVec F S2x10x13 .f32 := broadcastInDim S2x10x13 ![] bcast_S_S2x10x13 main_cst_10
  let main_v31 : IVec S2x10x13 1 := cmpf .olt main_v29 main_v30
  let main_c_11 : IVec S_ 1 := constantI S_ 1 1#1
  let main_v32 : IVec S_ 1 := (fun x v => Host.reduce IntOp.andi x v reducesTo_S2x10x13_S_d0_1_2 h_S_) main_v31 main_c_11
  let main_v33 : IVec S_ 1 := andi main_v28 main_v32
  main_v33

def fn {F : FTy → Type} [FloatOps F] (main_arg0 : FVec F S524288x2x10 .f32) (main_arg1 : FVec F S13 .f32) (main_arg2 : FVec F S13x10 .f32) (main_arg3 : FVec F S13x10 .f32) (main_arg4 : FVec F S13x10 .f32) (main_arg5 : FVec F S13x10 .f32) (main_arg6 : FVec F S2x10x13 .f32) : IVec S_ 1 :=
  let main_v0 : FVec F S524288x2x10 .f32 := Host.absf main_arg0
  let main_cst : FVec F S_ .f32 := constant S_ .f32 0x7F800000#32
  let main_v1 : FVec F S524288x2x10 .f32 := broadcastInDim S524288x2x10 ![] bcast_S_S524288x2x10 main_cst
  let main_v2 : IVec S524288x2x10 1 := cmpf .olt main_v0 main_v1
  let main_c : IVec S_ 1 := constantI S_ 1 1#1
  let main_v3 : IVec S_ 1 := (fun x v => Host.reduce IntOp.andi x v reducesTo_S524288x2x10_S_d0_1_2 h_S_) main_v2 main_c
  let main_v4 : FVec F S13 .f32 := Host.absf main_arg1
  let main_cst_0 : FVec F S_ .f32 := constant S_ .f32 0x7F800000#32
  let main_v5 : FVec F S13 .f32 := broadcastInDim S13 ![] bcast_S_S13 main_cst_0
  let main_v6 : IVec S13 1 := cmpf .olt main_v4 main_v5
  let main_c_1 : IVec S_ 1 := constantI S_ 1 1#1
  let main_v7 : IVec S_ 1 := (fun x v => Host.reduce IntOp.andi x v reducesTo_S13_S_d0 h_S_) main_v6 main_c_1
  let main_v8 : IVec S_ 1 := andi main_v3 main_v7
  let main_v9 : FVec F S13x10 .f32 := Host.absf main_arg2
  let main_cst_2 : FVec F S_ .f32 := constant S_ .f32 0x7F800000#32
  let main_v10 : FVec F S13x10 .f32 := broadcastInDim S13x10 ![] bcast_S_S13x10 main_cst_2
  let main_v11 : IVec S13x10 1 := cmpf .olt main_v9 main_v10
  let main_c_3 : IVec S_ 1 := constantI S_ 1 1#1
  let main_v12 : IVec S_ 1 := (fun x v => Host.reduce IntOp.andi x v reducesTo_S13x10_S_d0_1 h_S_) main_v11 main_c_3
  let main_v13 : IVec S_ 1 := andi main_v8 main_v12
  let main_v14 : FVec F S13x10 .f32 := Host.absf main_arg3
  let main_cst_4 : FVec F S_ .f32 := constant S_ .f32 0x7F800000#32
  let main_v15 : FVec F S13x10 .f32 := broadcastInDim S13x10 ![] bcast_S_S13x10 main_cst_4
  let main_v16 : IVec S13x10 1 := cmpf .olt main_v14 main_v15
  fn_part1 (F := F) main_arg4 main_arg5 main_arg6 main_v13 main_v16
-- ==== Kernel.lean ====
abbrev S524288x2x10 : Shape := ⟨3, ![524288, 2, 10]⟩
abbrev S13 : Shape := ⟨1, ![13]⟩
abbrev S13x10 : Shape := ⟨2, ![13, 10]⟩
abbrev S2x10x13 : Shape := ⟨3, ![2, 10, 13]⟩
abbrev S524288x2x10x13 : Shape := ⟨4, ![524288, 2, 10, 13]⟩
abbrev S524288x13 : Shape := ⟨2, ![524288, 13]⟩
abbrev S512x2x10 : Shape := ⟨3, ![512, 2, 10]⟩
abbrev S512x2x10x13 : Shape := ⟨4, ![512, 2, 10, 13]⟩
abbrev S512x13 : Shape := ⟨2, ![512, 13]⟩
abbrev S512x1x10 : Shape := ⟨3, ![512, 1, 10]⟩
abbrev S512x10 : Shape := ⟨2, ![512, 10]⟩
abbrev S1x13 : Shape := ⟨2, ![1, 13]⟩
abbrev S1x10x13 : Shape := ⟨3, ![1, 10, 13]⟩
abbrev S10x13 : Shape := ⟨2, ![10, 13]⟩
abbrev S512x1x13 : Shape := ⟨3, ![512, 1, 13]⟩
abbrev S512x10x13 : Shape := ⟨3, ![512, 10, 13]⟩
abbrev S512x1x10x13 : Shape := ⟨4, ![512, 1, 10, 13]⟩

abbrev nBuf : Space → Nat
  | .hbm => 9
  | .vmem => 12
  | .smem => 0
  | _ => 0

abbrev bufTy : (tb : Table) → Fin (tcTables nBuf tb) → BufTy
  | .hbm, ⟨0, _⟩ => ⟨S524288x2x10, .f32⟩
  | .hbm, ⟨1, _⟩ => ⟨S13, .f32⟩
  | .hbm, ⟨2, _⟩ => ⟨S13x10, .f32⟩
  | .hbm, ⟨3, _⟩ => ⟨S13x10, .f32⟩
  | .hbm, ⟨4, _⟩ => ⟨S13x10, .f32⟩
  | .hbm, ⟨5, _⟩ => ⟨S13x10, .f32⟩
  | .hbm, ⟨6, _⟩ => ⟨S2x10x13, .f32⟩
  | .hbm, ⟨7, _⟩ => ⟨S524288x2x10x13, .f32⟩
  | .hbm, ⟨8, _⟩ => ⟨S524288x13, .f32⟩
  | .local _ .vmem, ⟨0, _⟩ => ⟨S512x2x10, .f32⟩
  | .local _ .vmem, ⟨1, _⟩ => ⟨S512x2x10, .f32⟩
  | .local _ .vmem, ⟨2, _⟩ => ⟨S13, .f32⟩
  | .local _ .vmem, ⟨3, _⟩ => ⟨S13x10, .f32⟩
  | .local _ .vmem, ⟨4, _⟩ => ⟨S13x10, .f32⟩
  | .local _ .vmem, ⟨5, _⟩ => ⟨S13x10, .f32⟩
  | .local _ .vmem, ⟨6, _⟩ => ⟨S13x10, .f32⟩
  | .local _ .vmem, ⟨7, _⟩ => ⟨S2x10x13, .f32⟩
  | .local _ .vmem, ⟨8, _⟩ => ⟨S512x2x10x13, .f32⟩
  | .local _ .vmem, ⟨9, _⟩ => ⟨S512x2x10x13, .f32⟩
  | .local _ .vmem, ⟨10, _⟩ => ⟨S512x13, .f32⟩
  | .local _ .vmem, ⟨11, _⟩ => ⟨S512x13, .f32⟩
  | _, _ => ⟨S524288x2x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S13x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x10x13 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2x10x13 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x13 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S512x2x10_S512x2x10_0_0_0 : ∀ a, (![0, 0, 0] : Fin 3 → Nat) a + S512x2x10.size a ≤ S512x2x10.size a
  h_S512x2x10 : 0 < S512x2x10.numel
  slices_S512x2x10_o0_0_0_S512x1x10 : S512x2x10.Slices ![0, 0, 0] S512x1x10
  shapeCasts_S512x1x10_S512x10 : S512x1x10.ShapeCasts S512x10
  slices_S512x2x10_o0_1_0_S512x1x10 : S512x2x10.Slices ![0, 1, 0] S512x1x10
  inb_S13x10_S13x10_0_0 : ∀ a, (![0, 0] : Fin 2 → Nat) a + S13x10.size a ≤ S13x10.size a
  h_S13x10 : 0 < S13x10.numel
  inb_S13_S13_0 : ∀ a, (![0] : Fin 1 → Nat) a + S13.size a ≤ S13.size a
  h_S13 : 0 < S13.numel
  shapeCasts_S13_S1x13 : S13.ShapeCasts S1x13
  broadcasts_S1x13_S512x13 : S1x13.Broadcasts S512x13
  inb_S2x10x13_S1x10x13_0_0_0 : ∀ a, (![0, 0, 0] : Fin 3 → Nat) a + S1x10x13.size a ≤ S2x10x13.size a
  h_S1x10x13 : 0 < S1x10x13.numel
  shapeCasts_S1x10x13_S10x13 : S1x10x13.ShapeCasts S10x13
  inb_S2x10x13_S1x10x13_1_0_0 : ∀ a, (![1, 0, 0] : Fin 3 → Nat) a + S1x10x13.size a ≤ S2x10x13.size a
  shapeCasts_S512x13_S512x1x13 : S512x13.ShapeCasts S512x1x13
  shapeCasts_S10x13_S1x10x13 : S10x13.ShapeCasts S1x10x13
  broadcasts_S512x1x13_S512x10x13 : S512x1x13.Broadcasts S512x10x13
  broadcasts_S1x10x13_S512x10x13 : S1x10x13.Broadcasts S512x10x13
  inb_S512x2x10x13_S512x1x10x13_0_0_0_0 : ∀ a, (![0, 0, 0, 0] : Fin 4 → Nat) a + S512x1x10x13.size a ≤ S512x2x10x13.size a
  h_S512x1x10x13 : 0 < S512x1x10x13.numel
  shapeCasts_S512x1x10x13_S512x10x13 : S512x1x10x13.ShapeCasts S512x10x13
  shapeCasts_S512x10x13_S512x1x10x13 : S512x10x13.ShapeCasts S512x1x10x13
  inb_S512x2x10x13_S512x1x10x13_0_1_0_0 : ∀ a, (![0, 1, 0, 0] : Fin 4 → Nat) a + S512x1x10x13.size a ≤ S512x2x10x13.size a
  inb_S512x13_S512x13_0_0 : ∀ a, (![0, 0] : Fin 2 → Nat) a + S512x13.size a ≤ S512x13.size a
  h_S512x13 : 0 < S512x13.numel
  dot_S512x10_S13x10_S512x13_1_1_0_0_n_n_wf : DotDims.WF S512x10 S13x10 S512x13 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2x10.size a ≤ S524288x2x10.size a
  hwx0_0 : ∀ i : grid0.Coords, EltTy.bits .f32 = 32 ∨ (Rect.block (s := S524288x2x10) S512x2x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13.size a ≤ S13.size a
  hwx0_1 : ∀ i : grid0.Coords, EltTy.bits .f32 = 32 ∨ (Rect.block (s := S13) S13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x10.size a ≤ S13x10.size a
  hwx0_2 : ∀ i : grid0.Coords, EltTy.bits .f32 = 32 ∨ (Rect.block (s := S13x10) S13x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x10.size a ≤ S13x10.size a
  hwx0_3 : ∀ i : grid0.Coords, EltTy.bits .f32 = 32 ∨ (Rect.block (s := S13x10) S13x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x10.size a ≤ S13x10.size a
  hwx0_4 : ∀ i : grid0.Coords, EltTy.bits .f32 = 32 ∨ (Rect.block (s := S13x10) S13x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S13x10.size a ≤ S13x10.size a
  hwx0_5 : ∀ i : grid0.Coords, EltTy.bits .f32 = 32 ∨ (Rect.block (s := S13x10) S13x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x10x13.size a ≤ S2x10x13.size a
  hwx0_6 : ∀ i : grid0.Coords, EltTy.bits .f32 = 32 ∨ (Rect.block (s := S2x10x13) S2x10x13.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2x10x13.size a ≤ S524288x2x10x13.size a
  hwx0_7 : ∀ i : grid0.Coords, EltTy.bits .f32 = 32 ∨ (Rect.block (s := S524288x2x10x13) S512x2x10x13.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x13.size a ≤ S524288x13.size a
  hwx0_8 : ∀ i : grid0.Coords, EltTy.bits .f32 = 32 ∨ (Rect.block (s := S524288x13) S512x13.size (cc0_transform_8 i) (hinb0_8 i)).WholeWords (EltTy.packing .f32)

variable [Facts₀]

def dot_S512x10_S13x10_S512x13_1_1_0_0_n_n : DotDims S512x10 S13x10 S512x13 where
  lhsContracting := [1]
  rhsContracting := [1]
  lhsNonContracting := [0]
  rhsNonContracting := [0]
  lhsBatch := []
  rhsBatch := []
  wf := dot_S512x10_S13x10_S512x13_1_1_0_0_n_n_wf

abbrev win0_0 : Pipeline.Window sig grid0 :=
  Pipeline.Window.ofSpec (Memref.whole main_arg0) S512x2x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S13.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S13x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S13x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S13x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x10x13.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x2x10x13.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S512x13.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x2x10 : Shape := ⟨3, ![524288, 2, 10]⟩
abbrev S13 : Shape := ⟨1, ![13]⟩
abbrev S13x10 : Shape := ⟨2, ![13, 10]⟩
abbrev S2x10x13 : Shape := ⟨3, ![2, 10, 13]⟩
abbrev S524288x1x10 : Shape := ⟨3, ![524288, 1, 10]⟩
abbrev S524288x10 : Shape := ⟨2, ![524288, 10]⟩
abbrev S524288x13 : Shape := ⟨2, ![524288, 13]⟩
abbrev S_ : Shape := ⟨0, ![]⟩
abbrev S1x13 : Shape := ⟨2, ![1, 13]⟩
abbrev S524288x1x13 : Shape := ⟨3, ![524288, 1, 13]⟩
abbrev S1x10x13 : Shape := ⟨3, ![1, 10, 13]⟩
abbrev S10x13 : Shape := ⟨2, ![10, 13]⟩
abbrev S524288x10x13 : Shape := ⟨3, ![524288, 10, 13]⟩
abbrev S524288x1x10x13 : Shape := ⟨4, ![524288, 1, 10, 13]⟩
abbrev S524288x2x10x13 : Shape := ⟨4, ![524288, 2, 10, 13]⟩

abbrev nBuf : Space → Nat
  | .hbm => 58
  | .vmem => 0
  | .smem => 0
  | _ => 0

abbrev bufTy : (tb : Table) → Fin (tcTables nBuf tb) → BufTy
  | .hbm, ⟨0, _⟩ => ⟨S524288x2x10, .f32⟩
  | .hbm, ⟨1, _⟩ => ⟨S13, .f32⟩
  | .hbm, ⟨2, _⟩ => ⟨S13x10, .f32⟩
  | .hbm, ⟨3, _⟩ => ⟨S13x10, .f32⟩
  | .hbm, ⟨4, _⟩ => ⟨S13x10, .f32⟩
  | .hbm, ⟨5, _⟩ => ⟨S13x10, .f32⟩
  | .hbm, ⟨6, _⟩ => ⟨S2x10x13, .f32⟩
  | .hbm, ⟨7, _⟩ => ⟨S524288x1x10, .f32⟩
  | .hbm, ⟨8, _⟩ => ⟨S524288x10, .f32⟩
  | .hbm, ⟨9, _⟩ => ⟨S524288x1x10, .f32⟩
  | .hbm, ⟨10, _⟩ => ⟨S524288x10, .f32⟩
  | .hbm, ⟨11, _⟩ => ⟨S524288x13, .f32⟩
  | .hbm, ⟨12, _⟩ => ⟨S524288x13, .f32⟩
  | .hbm, ⟨13, _⟩ => ⟨S524288x13, .f32⟩
  | .hbm, ⟨14, _⟩ => ⟨S524288x13, .f32⟩
  | .hbm, ⟨15, _⟩ => ⟨S524288x13, .f32⟩
  | .hbm, ⟨16, _⟩ => ⟨S524288x13, .f32⟩
  | .hbm, ⟨17, _⟩ => ⟨S524288x13, .f32⟩
  | .hbm, ⟨18, _⟩ => ⟨S_, .f32⟩
  | .hbm, ⟨19, _⟩ => ⟨S524288x13, .f32⟩
  | .hbm, ⟨20, _⟩ => ⟨S524288x13, .f32⟩
  | .hbm, ⟨21, _⟩ => ⟨S524288x13, .f32⟩
  | .hbm, ⟨22, _⟩ => ⟨S1x13, .f32⟩
  | .hbm, ⟨23, _⟩ => ⟨S524288x13, .f32⟩
  | .hbm, ⟨24, _⟩ => ⟨S524288x13, .f32⟩
  | .hbm, ⟨25, _⟩ => ⟨S524288x13, .f32⟩
  | .hbm, ⟨26, _⟩ => ⟨S524288x1x13, .f32⟩
  | .hbm, ⟨27, _⟩ => ⟨S524288x13, .f32⟩
  | .hbm, ⟨28, _⟩ => ⟨S524288x13, .f32⟩
  | .hbm, ⟨29, _⟩ => ⟨S524288x1x13, .f32⟩
  | .hbm, ⟨30, _⟩ => ⟨S524288x13, .f32⟩
  | .hbm, ⟨31, _⟩ => ⟨S524288x13, .f32⟩
  | .hbm, ⟨32, _⟩ => ⟨S524288x1x13, .f32⟩
  | .hbm, ⟨33, _⟩ => ⟨S524288x13, .f32⟩
  | .hbm, ⟨34, _⟩ => ⟨S524288x1x13, .f32⟩
  | .hbm, ⟨35, _⟩ => ⟨S1x10x13, .f32⟩
  | .hbm, ⟨36, _⟩ => ⟨S10x13, .f32⟩
  | .hbm, ⟨37, _⟩ => ⟨S1x10x13, .f32⟩
  | .hbm, ⟨38, _⟩ => ⟨S1x10x13, .f32⟩
  | .hbm, ⟨39, _⟩ => ⟨S10x13, .f32⟩
  | .hbm, ⟨40, _⟩ => ⟨S1x10x13, .f32⟩
  | .hbm, ⟨41, _⟩ => ⟨S524288x10x13, .f32⟩
  | .hbm, ⟨42, _⟩ => ⟨S524288x10x13, .f32⟩
  | .hbm, ⟨43, _⟩ => ⟨S524288x10x13, .f32⟩
  | .hbm, ⟨44, _⟩ => ⟨S524288x10x13, .f32⟩
  | .hbm, ⟨45, _⟩ => ⟨S524288x10x13, .f32⟩
  | .hbm, ⟨46, _⟩ => ⟨S524288x10x13, .f32⟩
  | .hbm, ⟨47, _⟩ => ⟨S524288x10x13, .f32⟩
  | .hbm, ⟨48, _⟩ => ⟨S524288x10x13, .f32⟩
  | .hbm, ⟨49, _⟩ => ⟨S524288x10x13, .f32⟩
  | .hbm, ⟨50, _⟩ => ⟨S524288x10x13, .f32⟩
  | .hbm, ⟨51, _⟩ => ⟨S524288x10x13, .f32⟩
  | .hbm, ⟨52, _⟩ => ⟨S524288x10x13, .f32⟩
  | .hbm, ⟨53, _⟩ => ⟨S524288x10x13, .f32⟩
  | .hbm, ⟨54, _⟩ => ⟨S524288x10x13, .f32⟩
  | .hbm, ⟨55, _⟩ => ⟨S524288x1x10x13, .f32⟩
  | .hbm, ⟨56, _⟩ => ⟨S524288x1x10x13, .f32⟩
  | .hbm, ⟨57, _⟩ => ⟨S524288x2x10x13, .f32⟩
  | _, _ => ⟨S524288x2x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]

class Facts₀ : Prop where
  slices_S524288x2x10_S524288x1x10_0_0_0 : S524288x2x10.Slices ![0, 0, 0] S524288x1x10
  shapeCasts_S524288x1x10_S524288x10 : S524288x1x10.ShapeCasts S524288x10
  slices_S524288x2x10_S524288x1x10_0_1_0 : S524288x2x10.Slices ![0, 1, 0] S524288x1x10
  bcast_S_S524288x13 : S_.BroadcastsInDim S524288x13 (![] : Fin 0 → Fin S524288x13.rank)
  bcast_S13_S1x13_1 : S13.BroadcastsInDim S1x13 (![1] : Fin 1 → Fin S1x13.rank)
  bcast_S1x13_S524288x13_0_1 : S1x13.BroadcastsInDim S524288x13 (![0, 1] : Fin 2 → Fin S524288x13.rank)
  bcast_S524288x13_S524288x1x13_0_2 : S524288x13.BroadcastsInDim S524288x1x13 (![0, 2] : Fin 2 → Fin S524288x1x13.rank)
  slices_S2x10x13_S1x10x13_0_0_0 : S2x10x13.Slices ![0, 0, 0] S1x10x13
  shapeCasts_S1x10x13_S10x13 : S1x10x13.ShapeCasts S10x13
  bcast_S10x13_S1x10x13_1_2 : S10x13.BroadcastsInDim S1x10x13 (![1, 2] : Fin 2 → Fin S1x10x13.rank)
  slices_S2x10x13_S1x10x13_1_0_0 : S2x10x13.Slices ![1, 0, 0] S1x10x13
  bcast_S524288x1x13_S524288x10x13_0_1_2 : S524288x1x13.BroadcastsInDim S524288x10x13 (![0, 1, 2] : Fin 3 → Fin S524288x10x13.rank)
  bcast_S1x10x13_S524288x10x13_0_1_2 : S1x10x13.BroadcastsInDim S524288x10x13 (![0, 1, 2] : Fin 3 → Fin S524288x10x13.rank)
  bcast_S524288x10x13_S524288x1x10x13_0_2_3 : S524288x10x13.BroadcastsInDim S524288x1x10x13 (![0, 2, 3] : Fin 3 → Fin S524288x1x10x13.rank)
  concatenates_S524288x1x10x13_S524288x1x10x13_S524288x2x10x13_d1 : Shape.Concatenates [S524288x1x10x13, S524288x1x10x13] S524288x2x10x13 1
  dot_S524288x10_S13x10_S524288x13_1_1_0_0_n_n_wf : DotDims.WF S524288x10 S13x10 S524288x13 [1] [1] [0] [0] [] []

variable [Facts₀]

def dot_S524288x10_S13x10_S524288x13_1_1_0_0_n_n : DotDims S524288x10 S13x10 S524288x13 where
  lhsContracting := [1]
  rhsContracting := [1]
  lhsNonContracting := [0]
  rhsNonContracting := [0]
  lhsBatch := []
  rhsBatch := []
  wf := dot_S524288x10_S13x10_S524288x13_1_1_0_0_n_n_wf

class Facts : Prop extends Facts₀ where

variable [Facts]
-- ==== Proof.Spec.lean ====
/-
  The two results of the computation as functions of the argument arrays, entry by entry, on the extended reals.

  One element e of the batch carries two rows of ten nodal coordinates, e 0 (its x's) and e 1 (its y's). Against
  four weight matrices of thirteen rows (one row per quadrature point g) the four Jacobian entries at g are the dot
  products
      j11 = e 0 . w11 g,   j12 = e 1 . w12 g,   j21 = e 0 . w21 g,   j22 = e 1 . w22 g,
  the determinant is j11 * j22 - j21 * j12, its reciprocal is 1 / det (the exact division of the extended reals, with
  its conventions at 0 and at the infinities), and the results are
      detwei g        = |det| * weight g
      nx 0 n g        = (j22 * inv) * nlx 0 n g + (-j12 * inv) * nlx 1 n g
      nx 1 n g        = (-j21 * inv) * nlx 0 n g + (j11 * inv) * nlx 1 n g
  (the inverse Jacobian applied to the two local derivative tables).  Every entry of batch element b reads row b
  of the coordinate array and nothing else of it: that is what lets a block of batch rows be computed from the block
  alone (rows_nx, rows_detwei).
-/
import Idealize.ShloMosaic.Lib.ValueIdx
import Idealize.ShloMosaic.PureOps.Ideal.Laws

noncomputable section

namespace Cert.DetNlx

open Idealize.ShloMosaic Idealize.ShloMosaic.ValueIdx

/-- The coordinates of one batch element: row 0 its x's, row 1 its y's, at the ten nodes. -/
abbrev Elem := Fin 2 → Fin 10 → EReal

/-- A weight matrix: one row of ten weights per quadrature point. -/
abbrev Weights := Fin 13 → Fin 10 → EReal

/-- A row of nodal values against row g of a weight matrix. -/
def jac (v : Fin 10 → EReal) (w : Weights) (g : Fin 13) : EReal := ∑ k : Fin 10, v k * w g k

section PerElement
variable (e : Elem) (w11 w12 w21 w22 : Weights)

/-- The Jacobian determinant at quadrature point g. -/
def det (g : Fin 13) : EReal := jac (e 0) w11 g * jac (e 1) w22 g - jac (e 0) w21 g * jac (e 1) w12 g

/-- Its reciprocal: the word 0x3F800000 is the number one. -/
def invdet (g : Fin 13) : EReal := Ideal.div (Ideal.ofBits .f32 0x3F800000#32) (det e w11 w12 w21 w22 g)

/-- The absolute determinant times the quadrature weight. -/
def detwei (wt : Fin 13 → EReal) (g : Fin 13) : EReal :=
  max (det e w11 w12 w21 w22 g) (-(det e w11 w12 w21 w22 g)) * wt g

/-- The first row of the inverse Jacobian applied to the two derivative tables. -/
def nxFirst (nl : Fin 2 → Fin 10 → Fin 13 → EReal) (n : Fin 10) (g : Fin 13) : EReal :=
  jac (e 1) w22 g * invdet e w11 w12 w21 w22 g * nl 0 n g + -(jac (e 1) w12 g) * invdet e w11 w12 w21 w22 g * nl 1 n g

/-- The second row of the inverse Jacobian applied to the two derivative tables. -/
def nxSecond (nl : Fin 2 → Fin 10 → Fin 13 → EReal) (n : Fin 10) (g : Fin 13) : EReal :=
  -(jac (e 0) w21 g) * invdet e w11 w12 w21 w22 g * nl 0 n g + jac (e 0) w11 g * invdet e w11 w12 w21 w22 g * nl 1 n g

/-- The global derivatives: direction a, node n, quadrature point g. -/
def nx (nl : Fin 2 → Fin 10 → Fin 13 → EReal) (a : Fin 2) (n : Fin 10) (g : Fin 13) : EReal :=
  if a.val = 0 then nxFirst e w11 w12 w21 w22 nl n g else nxSecond e w11 w12 w21 w22 nl n g

end PerElement

/-! ## The arrays -/

/-- Batch element b of a coordinate array of B elements. -/
def elemOf {B : ℕ} (X : FVec Ideal ⟨3, ![B, 2, 10]⟩ .f32) (b : Fin B) : Elem := fun a k => X (ix3 b a k)

/-- A weight array read by rows. -/
def weightsOf (W : FVec Ideal ⟨2, ![13, 10]⟩ .f32) : Weights := fun g k => W (ix2 g k)

/-- The derivative tables read by coordinates. -/
def tablesOf (N : FVec Ideal ⟨3, ![2, 10, 13]⟩ .f32) : Fin 2 → Fin 10 → Fin 13 → EReal := fun a n g => N (ix3 a n g)

/-- The quadrature weights read by coordinate. -/
def quadOf (Wt : FVec Ideal ⟨1, ![13]⟩ .f32) : Fin 13 → EReal := fun g => Wt (ix1 g)

/-- The global derivatives of every batch element: entry (b, a, n, g). -/
def nxArr {B : ℕ} (X : FVec Ideal ⟨3, ![B, 2, 10]⟩ .f32) (W11 W12 W21 W22 : FVec Ideal ⟨2, ![13, 10]⟩ .f32)
    (N : FVec Ideal ⟨3, ![2, 10, 13]⟩ .f32) : FVec Ideal ⟨4, ![B, 2, 10, 13]⟩ .f32 :=
  fun i => nx (elemOf X (i 0)) (weightsOf W11) (weightsOf W12) (weightsOf W21) (weightsOf W22) (tablesOf N) (i 1) (i 2) (i 3)

/-- The weighted determinants of every batch element: entry (b, g). -/
def detweiArr {B : ℕ} (X : FVec Ideal ⟨3, ![B, 2, 10]⟩ .f32) (Wt : FVec Ideal ⟨1, ![13]⟩ .f32)
    (W11 W12 W21 W22 : FVec Ideal ⟨2, ![13, 10]⟩ .f32) : FVec Ideal ⟨2, ![B, 13]⟩ .f32 :=
  fun i => detwei (elemOf X (i 0)) (weightsOf W11) (weightsOf W12) (weightsOf W21) (weightsOf W22) (quadOf Wt) (i 1)

theorem nxArr_apply {B : ℕ} (X : FVec Ideal ⟨3, ![B, 2, 10]⟩ .f32) (W11 W12 W21 W22 : FVec Ideal ⟨2, ![13, 10]⟩ .f32)
    (N : FVec Ideal ⟨3, ![2, 10, 13]⟩ .f32) (b : Fin B) (a : Fin 2) (n : Fin 10) (g : Fin 13) :
    nxArr X W11 W12 W21 W22 N (ix4 b a n g)
      = nx (elemOf X b) (weightsOf W11) (weightsOf W12) (weightsOf W21) (weightsOf W22) (tablesOf N) a n g := rfl

theorem detweiArr_apply {B : ℕ} (X : FVec Ideal ⟨3, ![B, 2, 10]⟩ .f32) (Wt : FVec Ideal ⟨1, ![13]⟩ .f32)
    (W11 W12 W21 W22 : FVec Ideal ⟨2, ![13, 10]⟩ .f32) (b : Fin B) (g : Fin 13) :
    detweiArr X Wt W11 W12 W21 W22 (ix2 b g)
      = detwei (elemOf X b) (weightsOf W11) (weightsOf W12) (weightsOf W21) (weightsOf W22) (quadOf Wt) g := rfl

/-! ## Row locality: a block of batch rows is computed from the block alone -/

/-- If row p of a block of R elements is row b of the whole coordinate array, the block's derivatives at p are the
    whole array's at b. -/
theorem rows_nx {R B : ℕ} (x : FVec Ideal ⟨3, ![R, 2, 10]⟩ .f32) (X : FVec Ideal ⟨3, ![B, 2, 10]⟩ .f32)
    (W11 W12 W21 W22 : FVec Ideal ⟨2, ![13, 10]⟩ .f32) (N : FVec Ideal ⟨3, ![2, 10, 13]⟩ .f32) (p : Fin R) (b : Fin B)
    (h : ∀ (a : Fin 2) (k : Fin 10), x (ix3 p a k) = X (ix3 b a k)) (a : Fin 2) (n : Fin 10) (g : Fin 13) :
    nxArr x W11 W12 W21 W22 N (ix4 p a n g) = nxArr X W11 W12 W21 W22 N (ix4 b a n g) := by
  rw [nxArr_apply, nxArr_apply, show elemOf x p = elemOf X b from funext fun a => funext fun k => h a k]

/-- The same for the weighted determinants. -/
theorem rows_detwei {R B : ℕ} (x : FVec Ideal ⟨3, ![R, 2, 10]⟩ .f32) (X : FVec Ideal ⟨3, ![B, 2, 10]⟩ .f32)
    (Wt : FVec Ideal ⟨1, ![13]⟩ .f32) (W11 W12 W21 W22 : FVec Ideal ⟨2, ![13, 10]⟩ .f32) (p : Fin R) (b : Fin B)
    (h : ∀ (a : Fin 2) (k : Fin 10), x (ix3 p a k) = X (ix3 b a k)) (g : Fin 13) :
    detweiArr x Wt W11 W12 W21 W22 (ix2 p g) = detweiArr X Wt W11 W12 W21 W22 (ix2 b g) := by
  rw [detweiArr_apply, detweiArr_apply, show elemOf x p = elemOf X b from funext fun a => funext fun k => h a k]

end Cert.DetNlx

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.LibColumnSums.lean ====
/-
  Sums along the FIRST axis of a matrix, and a middle unit axis dropped, each read at an index given by its
  coordinates.

  A sum along the first axis of a matrix [a, b], read at the column q, ranges over the entries (k, q) of that column:
  the reduced index q has its row coordinate k put back. It is the counterpart, for the other axis, of a row sum
  read at a row.

  An array [a, 1, b] and the matrix [a, b] hold the same entries in the same row-major order: the entry (i, j) of the
  matrix is the entry (i, 0, j) of the array, the unit coordinate contributing nothing to the position i * b + j.
  General in the extents, and the cast in the element type.
-/
import Idealize.ShloMosaic.Lib.Pipeline.Value
import Idealize.ShloMosaic.Lib.ValueIdx
import Idealize.ShloMosaic.PureOps.Ideal.Laws

namespace Cert.ColumnSums

open Idealize.ShloMosaic Idealize.ShloMosaic.ValueIdx

variable {α : Type}

/-! ## The reduced index with the row coordinate put back -/

/-- The index of a matrix [a, b] whose column coordinate is the reduced index's and whose row coordinate is k. -/
theorem lift_rows {a b : ℕ} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-! ## Sums along the first axis (an f32 sum over the rows from the zero accumulator) -/

/-- Along the rows of [a, b], at column q: the sum over k of the entries (k, q). -/
theorem sum_rows {a b : ℕ} (src : FVec Ideal ⟨2, ![a, b]⟩ .f32) (h : (⟨2, ![a, b]⟩ : Shape).Reduces [0] ⟨1, ![b]⟩) (q : Fin b) :
    multiReduction .add [0] ⟨1, ![b]⟩ src 0x00000000#32 h (.inl rfl) rfl (ix1 q) = ∑ k : Fin a, src (ix2 k q) :=
  (Ideal.multiReduction_add_single src 0x00000000#32 h (.inl rfl) rfl (ix1 q)).trans
    (Finset.sum_congr rfl fun k _ => congrArg src (lift_rows h q k))

/-! ## A middle unit axis dropped -/

/-- [a, 1, b] cast to [a, b] reads, at (i, j), the operand at (i, 0, j): both indices have row-major position
    i * b + j. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.ColumnSums
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibSecondUnitAxis.lean ====
/-
  A unit axis inserted after the leading axis of a rank-three array, or dropped again, read at an index given by
  its coordinates.

  An array [a, b, c] and the array [a, 1, b, c] hold the same entries in the same row-major order: entry
  (i, u, j, k) of the second is entry (i, j, k) of the first, the unit coordinate u = 0 contributing nothing to the
  position (i * b + j) * c + k. General in the extents and in the element type.
-/
import Idealize.ShloMosaic.Lib.Pipeline.Value
import Idealize.ShloMosaic.Lib.ValueIdx

namespace Cert.SecondUnitAxis

open Idealize.ShloMosaic Idealize.ShloMosaic.ValueIdx

variable {α : Type}

/-- [a, b, c] cast to [a, 1, b, c] reads, at (i, u, j, k), the operand at (i, j, k). -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-- [a, 1, b, c] cast to [a, b, c] reads, at (i, j, k), the operand at (i, 0, j, k). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

end Cert.SecondUnitAxis
-- ==== Proof.KernelBody.lean ====
/-
  The kernel's body, read entry by entry on the extended reals.

  One grid point holds a block of 512 batch elements. From the block's coordinates x0 : [512, 2, 10] the body cuts
  the x rows and the y rows, multiplies each against a weight matrix [13, 10] along the ten nodes (a product from the
  zero accumulator: a plain sum of ten products), and from the four products builds the determinant, its reciprocal,
  the four entries of the inverse Jacobian and the two results. Each lemma below says what one of those values is at
  coordinates, in the words of the specification: the slices and casts only rename coordinates, a broadcast
  repeats an operand along a unit axis, and 0 - j is -j on every extended real.
  The two halves of the derivative block are stored through two rectangles (direction 0, direction 1) that together tile
  the block; both are the specification's nx at the rectangle's coordinates.
-/
import proofs.«156293_j53515292508349_2_alg».proof.Proof.Gen.KernelIdeal.Frame
import proofs.«156293_j53515292508349_2_alg».proof.Proof.Spec
import proofs.«156293_j53515292508349_2_alg».proof.Proof.LibMatmulRows
import proofs.«156293_j53515292508349_2_alg».proof.Proof.LibColumnSums
import proofs.«156293_j53515292508349_2_alg».proof.Proof.LibAxisReads
import proofs.«156293_j53515292508349_2_alg».proof.Proof.LibSecondUnitAxis
import Idealize.ShloMosaic.Lib.ValueLayout

noncomputable section

namespace Cert.KernelIdeal.Body

open Cert.KernelIdeal Cert.KernelIdeal.Gen Cert.DetNlx
open Idealize.ShloMosaic Idealize.ShloMosaic.ValueIdx

/-! ## The coordinate rows cut out of the block -/

/-- The x rows: entry (p, k) of the cut is the block's entry (p, 0, k). -/
theorem xrows_apply (x0 : Vec Ideal S512x2x10 .f32) (p : Fin 512) (k : Fin 10) :
    k0_pay4 (F := Ideal) x0 (ix2 p k) = x0 (ix3 p (0 : Fin 2) k) := by
  unfold k0_pay4
  exact (Cert.ColumnSums.shapeCast_a1b_ab_apply _ _ p k).trans
    (slice3_axis1_apply 0 x0 _ p (0 : Fin 1) k (0 : Fin 2) rfl)

/-- The y rows: entry (p, k) of the cut is the block's entry (p, 1, k). -/
theorem yrows_apply (x0 : Vec Ideal S512x2x10 .f32) (p : Fin 512) (k : Fin 10) :
    k0_pay5 (F := Ideal) x0 (ix2 p k) = x0 (ix3 p (1 : Fin 2) k) := by
  unfold k0_pay5
  exact (Cert.ColumnSums.shapeCast_a1b_ab_apply _ _ p k).trans
    (slice3_axis1_apply 1 x0 _ p (0 : Fin 1) k (1 : Fin 2) rfl)

/-! ## The four Jacobian entries -/

theorem j11_apply (x0 : Vec Ideal S512x2x10 .f32) (w : Vec Ideal S13x10 .f32) (p : Fin 512) (g : Fin 13) :
    k0_pay6 (F := Ideal) x0 w (ix2 p g) = jac (elemOf x0 p 0) (weightsOf w) g := by
  unfold k0_pay6
  refine (Cert.MatmulRows.matmul_rows_apply dot_S512x10_S13x10_S512x13_1_1_0_0_n_n (some .fp32) rfl rfl rfl rfl rfl rfl
    (k0_pay4 x0) w p g).trans ?_
  exact Finset.sum_congr rfl fun k _ => congrArg (· * w (ix2 g k)) (xrows_apply x0 p k)

theorem j12_apply (x0 : Vec Ideal S512x2x10 .f32) (w : Vec Ideal S13x10 .f32) (p : Fin 512) (g : Fin 13) :
    k0_pay7 (F := Ideal) x0 w (ix2 p g) = jac (elemOf x0 p 1) (weightsOf w) g := by
  unfold k0_pay7
  refine (Cert.MatmulRows.matmul_rows_apply dot_S512x10_S13x10_S512x13_1_1_0_0_n_n (some .fp32) rfl rfl rfl rfl rfl rfl
    (k0_pay5 x0) w p g).trans ?_
  exact Finset.sum_congr rfl fun k _ => congrArg (· * w (ix2 g k)) (yrows_apply x0 p k)

theorem j21_apply (x0 : Vec Ideal S512x2x10 .f32) (w : Vec Ideal S13x10 .f32) (p : Fin 512) (g : Fin 13) :
    k0_pay8 (F := Ideal) x0 w (ix2 p g) = jac (elemOf x0 p 0) (weightsOf w) g := by
  unfold k0_pay8
  refine (Cert.MatmulRows.matmul_rows_apply dot_S512x10_S13x10_S512x13_1_1_0_0_n_n (some .fp32) rfl rfl rfl rfl rfl rfl
    (k0_pay4 x0) w p g).trans ?_
  exact Finset.sum_congr rfl fun k _ => congrArg (· * w (ix2 g k)) (xrows_apply x0 p k)

theorem j22_apply (x0 : Vec Ideal S512x2x10 .f32) (w : Vec Ideal S13x10 .f32) (p : Fin 512) (g : Fin 13) :
    k0_pay9 (F := Ideal) x0 w (ix2 p g) = jac (elemOf x0 p 1) (weightsOf w) g := by
  unfold k0_pay9
  refine (Cert.MatmulRows.matmul_rows_apply dot_S512x10_S13x10_S512x13_1_1_0_0_n_n (some .fp32) rfl rfl rfl rfl rfl rfl
    (k0_pay5 x0) w p g).trans ?_
  exact Finset.sum_congr rfl fun k _ => congrArg (· * w (ix2 g k)) (yrows_apply x0 p k)

/-! ## Determinant, reciprocal, inverse Jacobian -/

section Pointwise
variable (x0 : Vec Ideal S512x2x10 .f32) (w11 w12 w21 w22 : Vec Ideal S13x10 .f32) (p : Fin 512) (g : Fin 13)

theorem det_apply :
    k0_pay10 (F := Ideal) x0 w11 w12 w21 w22 (ix2 p g)
      = det (elemOf x0 p) (weightsOf w11) (weightsOf w12) (weightsOf w21) (weightsOf w22) g := by
  show k0_pay6 x0 w11 (ix2 p g) * k0_pay9 x0 w22 (ix2 p g) - k0_pay8 x0 w21 (ix2 p g) * k0_pay7 x0 w12 (ix2 p g) = _
  rw [j11_apply, j22_apply, j21_apply, j12_apply]
  rfl

theorem invdet_apply :
    k0_pay11 (F := Ideal) x0 w11 w12 w21 w22 (ix2 p g)
      = invdet (elemOf x0 p) (weightsOf w11) (weightsOf w12) (weightsOf w21) (weightsOf w22) g := by
  show Ideal.div (Ideal.ofBits .f32 0x3F800000#32) (k0_pay10 x0 w11 w12 w21 w22 (ix2 p g)) = _
  rw [det_apply]
  rfl

/-- The zero word is the number zero, and zero minus a number is its negative, on every extended real. -/
theorem zero_word_sub (a : EReal) : Ideal.ofBits .f32 0x00000000#32 - a = -a := by
  rw [Ideal.ofBits_zero_f32, zero_sub]

theorem inv11_apply :
    k0_pay13 (F := Ideal) x0 w11 w12 w21 w22 (ix2 p g)
      = jac (elemOf x0 p 1) (weightsOf w22) g
        * invdet (elemOf x0 p) (weightsOf w11) (weightsOf w12) (weightsOf w21) (weightsOf w22) g := by
  show k0_pay9 x0 w22 (ix2 p g) * k0_pay11 x0 w11 w12 w21 w22 (ix2 p g) = _
  rw [j22_apply, invdet_apply]

theorem inv12_apply :
    k0_pay14 (F := Ideal) x0 w11 w12 w21 w22 (ix2 p g)
      = -(jac (elemOf x0 p 1) (weightsOf w12) g)
        * invdet (elemOf x0 p) (weightsOf w11) (weightsOf w12) (weightsOf w21) (weightsOf w22) g := by
  show (Ideal.ofBits .f32 0x00000000#32 - k0_pay7 x0 w12 (ix2 p g)) * k0_pay11 x0 w11 w12 w21 w22 (ix2 p g) = _
  rw [zero_word_sub, j12_apply, invdet_apply]

theorem inv21_apply :
    k0_pay15 (F := Ideal) x0 w11 w12 w21 w22 (ix2 p g)
      = -(jac (elemOf x0 p 0) (weightsOf w21) g)
        * invdet (elemOf x0 p) (weightsOf w11) (weightsOf w12) (weightsOf w21) (weightsOf w22) g := by
  show (Ideal.ofBits .f32 0x00000000#32 - k0_pay8 x0 w21 (ix2 p g)) * k0_pay11 x0 w11 w12 w21 w22 (ix2 p g) = _
  rw [zero_word_sub, j21_apply, invdet_apply]

theorem inv22_apply :
    k0_pay16 (F := Ideal) x0 w11 w12 w21 w22 (ix2 p g)
      = jac (elemOf x0 p 0) (weightsOf w11) g
        * invdet (elemOf x0 p) (weightsOf w11) (weightsOf w12) (weightsOf w21) (weightsOf w22) g := by
  show k0_pay6 x0 w11 (ix2 p g) * k0_pay11 x0 w11 w12 w21 w22 (ix2 p g) = _
  rw [j11_apply, invdet_apply]

/-- The weighted determinant: the weight vector, cast to a row and repeated down the block, is read at g. -/
theorem detwei_apply (wt : Vec Ideal S13 .f32) :
    k0_pay12 (F := Ideal) x0 w11 w12 w21 w22 wt (ix2 p g)
      = detwei (elemOf x0 p) (weightsOf w11) (weightsOf w12) (weightsOf w21) (weightsOf w22) (quadOf wt) g := by
  have hw : (broadcastTo S512x13 (shapeCast S1x13 wt shapeCasts_S13_S1x13) broadcasts_S1x13_S512x13) (ix2 p g) = wt (ix1 g) :=
    (broadcastTo_1b_ab_apply _ _ p g).trans (shapeCast_a_1a_apply wt _ 0 g)
  show max (k0_pay10 x0 w11 w12 w21 w22 (ix2 p g)) (-(k0_pay10 x0 w11 w12 w21 w22 (ix2 p g)))
      * (broadcastTo S512x13 (shapeCast S1x13 wt shapeCasts_S13_S1x13) broadcasts_S1x13_S512x13) (ix2 p g) = _
  rw [hw, det_apply]
  rfl

end Pointwise

/-! ## The inverse Jacobian applied to the derivative tables -/

/-- A coefficient [512, 13] given a unit node axis and repeated along the ten nodes. -/
theorem spread_coeff (cf : FVec Ideal S512x13 .f32) (p : Fin 512) (n : Fin 10) (g : Fin 13) :
    broadcastTo S512x10x13 (shapeCast S512x1x13 cf shapeCasts_S512x13_S512x1x13) broadcasts_S512x1x13_S512x10x13 (ix3 p n g)
      = cf (ix2 p g) :=
  (Cert.AxisReads.broadcastTo_a1c_abc_apply _ _ p n g).trans (Cert.AxisReads.shapeCast_ab_a1b_apply cf _ p 0 g)

/-- A table [10, 13] given a unit batch axis and repeated down the block. -/
theorem spread_table (tb : FVec Ideal S10x13 .f32) (p : Fin 512) (n : Fin 10) (g : Fin 13) :
    broadcastTo S512x10x13 (shapeCast S1x10x13 tb shapeCasts_S10x13_S1x10x13) broadcasts_S1x10x13_S512x10x13 (ix3 p n g)
      = tb (ix2 n g) :=
  (Cert.AxisReads.broadcastTo_1bc_abc_apply _ _ p n g).trans (shapeCast_ab_1ab_apply tb _ 0 n g)

/-- Direction 0's half: the two coefficients against the first table and the second table's one plane. -/
theorem halfFirst_apply (ca cb : FVec Ideal S512x13 .f32) (t1 : FVec Ideal S10x13 .f32) (t2 : Vec Ideal S1x10x13 .f32)
    (p : Fin 512) (u : Fin 1) (n : Fin 10) (g : Fin 13) :
    k0_pay2 (F := Ideal) ca cb t1 t2 (ix4 p u n g)
      = ca (ix2 p g) * t1 (ix2 n g) + cb (ix2 p g) * t2 (ix3 (0 : Fin 1) n g) := by
  unfold k0_pay2 k0_pay1
  refine (Cert.SecondUnitAxis.shapeCast_abc_a1bc_apply _ _ p u n g).trans ?_
  exact congrArg₂ (· + ·) (congrArg₂ (· * ·) (spread_coeff ca p n g) (spread_table t1 p n g))
    (congrArg₂ (· * ·) (spread_coeff cb p n g) ((spread_table _ p n g).trans (shapeCast_1ab_ab_apply t2 _ n g)))

/-- Direction 1's half: the same combination of its own two coefficients. -/
theorem halfSecond_apply (ca cb : FVec Ideal S512x13 .f32) (t1 : FVec Ideal S10x13 .f32) (t2 : Vec Ideal S1x10x13 .f32)
    (p : Fin 512) (u : Fin 1) (n : Fin 10) (g : Fin 13) :
    k0_pay3 (F := Ideal) ca cb t1 t2 (ix4 p u n g)
      = ca (ix2 p g) * t1 (ix2 n g) + cb (ix2 p g) * t2 (ix3 (0 : Fin 1) n g) := by
  unfold k0_pay3 k0_pay1
  refine (Cert.SecondUnitAxis.shapeCast_abc_a1bc_apply _ _ p u n g).trans ?_
  exact congrArg₂ (· + ·) (congrArg₂ (· * ·) (spread_coeff ca p n g) (spread_table t1 p n g))
    (congrArg₂ (· * ·) (spread_coeff cb p n g) ((spread_table _ p n g).trans (shapeCast_1ab_ab_apply t2 _ n g)))

/-- The first derivative table: plane 0 of the tables' block, its unit axis dropped. -/
theorem tableFirst_apply (x6 : Vec Ideal S2x10x13 .f32) (n : Fin 10) (g : Fin 13) :
    k0_pay17 (F := Ideal) (View.ld x6 r0_3) (ix2 n g) = x6 (ix3 (0 : Fin 2) n g) := by
  unfold k0_pay17
  refine (shapeCast_1ab_ab_apply _ _ n g).trans ?_
  show x6 (r0_3.idx (ix3 (0 : Fin 1) n g)) = x6 (ix3 (0 : Fin 2) n g)
  refine congrArg x6 (funext fun d => Fin.ext ?_)
  match d with
  | ⟨0, _⟩ => show 0 + 1 * 0 = 0; rfl
  | ⟨1, _⟩ => show 0 + 1 * n.val = n.val; omega
  | ⟨2, _⟩ => show 0 + 1 * g.val = g.val; omega

/-- The second derivative table as loaded: plane 1 of the tables' block. -/
theorem tableSecond_apply (x6 : Vec Ideal S2x10x13 .f32) (n : Fin 10) (g : Fin 13) :
    View.ld x6 r0_4 (ix3 (0 : Fin 1) n g) = x6 (ix3 (1 : Fin 2) n g) := by
  show x6 (r0_4.idx (ix3 (0 : Fin 1) n g)) = x6 (ix3 (1 : Fin 2) n g)
  refine congrArg x6 (funext fun d => Fin.ext ?_)
  match d with
  | ⟨0, _⟩ => show 1 + 1 * 0 = 1; rfl
  | ⟨1, _⟩ => show 0 + 1 * n.val = n.val; omega
  | ⟨2, _⟩ => show 0 + 1 * g.val = g.val; omega

/-! ## What the body leaves in the two output blocks -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The weighted-determinant block is the specification's array of the block's coordinates. -/
theorem out8_apply (x0 : Vec Ideal S512x2x10 .f32) (x1 : Vec Ideal S13 .f32) (x2 x3 x4 x5 : Vec Ideal S13x10 .f32)
    (x6 : Vec Ideal S2x10x13 .f32) (p : Fin 512) (g : Fin 13) :
    out0_8 x0 x1 x2 x3 x4 x5 x6 (ix2 p g) = detweiArr x0 x1 x2 x3 x4 x5 (ix2 p g) := by
  unfold out0_8
  rw [View.canon_unit_zero hz2]
  simp only [View.ld_unit_zero (S := S512x2x10) hz3, View.ld_unit_zero (S := S13x10) hz2, View.ld_unit_zero (S := S13) hz1]
  exact detwei_apply x0 x2 x3 x4 x5 p g x1

/-- The derivative block, stored as its two direction halves, is the specification's array of the block's
    coordinates: each half at its local coordinates is that array at the rectangle's coordinates, and the two
    rectangles tile the block. -/
theorem out7_apply (x0 : Vec Ideal S512x2x10 .f32) (x1 : Vec Ideal S13 .f32) (x2 x3 x4 x5 : Vec Ideal S13x10 .f32)
    (x6 : Vec Ideal S2x10x13 .f32) (y : S512x2x10x13.Idx) :
    out0_7 x0 x1 x2 x3 x4 x5 x6 y = nxArr x0 x2 x3 x4 x5 x6 y := by
  unfold out0_7
  simp only [View.ld_unit_zero (S := S512x2x10) hz3, View.ld_unit_zero (S := S13x10) hz2]
  refine View.canon_apply_of_pieces (Val := Elt Ideal) (e := .f32) (nxArr x0 x2 x3 x4 x5 x6) _ ?_ y (cover0_7 (F := Ideal) _ _ y)
  intro pc hpc
  rcases List.mem_cons.mp hpc with rfl | hpc
  · -- direction 1, through the rectangle at offset (0, 1, 0, 0)
    intro x
    obtain ⟨p, u, n, g, rfl⟩ : ∃ (p : Fin 512) (u : Fin 1) (n : Fin 10) (g : Fin 13), x = ix4 p u n g :=
      ⟨x 0, x 1, x 2, x 3, eq_ix4 x⟩
    have hu : u.val = 0 := by omega
    have he : r0_6.emb (ix4 p u n g) = ix4 p (1 : Fin 2) n g := funext fun d => Fin.ext (by
      match d with
      | ⟨0, _⟩ => show 0 + 1 * p.val = p.val; omega
      | ⟨1, _⟩ => show 1 + 1 * u.val = 1; omega
      | ⟨2, _⟩ => show 0 + 1 * n.val = n.val; omega
      | ⟨3, _⟩ => show 0 + 1 * g.val = g.val; omega)
    rw [he, nxArr_apply]
    refine (halfSecond_apply _ _ _ _ p u n g).trans ?_
    rw [inv21_apply, inv22_apply, tableFirst_apply, tableSecond_apply]
    rfl
  rcases List.mem_cons.mp hpc with rfl | hpc
  · -- direction 0, through the rectangle at offset (0, 0, 0, 0)
    intro x
    obtain ⟨p, u, n, g, rfl⟩ : ∃ (p : Fin 512) (u : Fin 1) (n : Fin 10) (g : Fin 13), x = ix4 p u n g :=
      ⟨x 0, x 1, x 2, x 3, eq_ix4 x⟩
    have hu : u.val = 0 := by omega
    have he : r0_5.emb (ix4 p u n g) = ix4 p (0 : Fin 2) n g := funext fun d => Fin.ext (by
      match d with
      | ⟨0, _⟩ => show 0 + 1 * p.val = p.val; omega
      | ⟨1, _⟩ => show 0 + 1 * u.val = 0; omega
      | ⟨2, _⟩ => show 0 + 1 * n.val = n.val; omega
      | ⟨3, _⟩ => show 0 + 1 * g.val = g.val; omega)
    rw [he, nxArr_apply]
    refine (halfFirst_apply _ _ _ _ p u n g).trans ?_
    rw [inv11_apply, inv12_apply, tableFirst_apply, tableSecond_apply]
    rfl
  nomatch hpc

end Cert.KernelIdeal.Body

end
-- ==== Proof.KernelArrays.lean ====
/-
  From the blocks to the whole arrays: what the kernel's two result arrays hold after the run.

  The grid has 1024 points; point t works on batch rows 512 t … 512 t + 511. Its coordinate block is those rows of the
  coordinate array, and the weight, weight-matrix and table windows are the whole arrays at every point (their block
  index is 0). By the body's reading and the row locality of the specification, what point t writes back to each result
  array is block t of the specification's array of the WHOLE argument arrays. Every batch row b lies in the block of
  point b / 512, so the blocks cover both result arrays, and each ends holding the specification's array.
-/
import proofs.«156293_j53515292508349_2_alg».proof.Proof.Gen.KernelIdeal.Value
import proofs.«156293_j53515292508349_2_alg».proof.Proof.KernelBody

noncomputable section

namespace Cert.KernelIdeal.Arrays

open Cert.KernelIdeal Cert.KernelIdeal.Gen Cert.DetNlx
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The windows' block indices, decided over the grid -/

/-- The coordinate window moves one block of rows per point. -/
theorem idx_coords : ∀ t : Fin cfg0.N, win0_0.index t (0 : Fin 3) = t.val ∧ win0_0.index t (1 : Fin 3) = 0
    ∧ win0_0.index t (2 : Fin 3) = 0 :=
  (by decide +kernel : ∀ t : Fin grid0.N, _)

/-- The weight vector, the four weight matrices and the tables are whole at every point. -/
theorem idx_whole : ∀ t : Fin cfg0.N, win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0 :=
  (by decide +kernel : ∀ t : Fin grid0.N, _)

/-- The derivative result moves one block of rows per point. -/
theorem idx_nx : ∀ t : Fin cfg0.N, win0_7.index t (0 : Fin 4) = t.val ∧ win0_7.index t (1 : Fin 4) = 0
    ∧ win0_7.index t (2 : Fin 4) = 0 ∧ win0_7.index t (3 : Fin 4) = 0 :=
  (by decide +kernel : ∀ t : Fin grid0.N, _)

/-- The weighted-determinant result moves one block of rows per point. -/
theorem idx_detwei : ∀ t : Fin cfg0.N, win0_8.index t (0 : Fin 2) = t.val ∧ win0_8.index t (1 : Fin 2) = 0 :=
  (by decide +kernel : ∀ t : Fin grid0.N, _)

/-! ## The input blocks -/

/-- Row p of point t's coordinate block is row 512 t + p of the coordinate array. -/
theorem coords_blk (c : Dev nD) (t : Fin cfg0.N) (p : Fin 512) (a : Fin 2) (k : Fin 10) (b : Fin 524288)
    (hb : b.val = t.val * 512 + p.val) :
    iblk m c 0 t (ix3 p a k) = V m c main_arg0 (ix3 b a k) := by
  obtain ⟨e0, e1, e2⟩ := idx_coords t
  show V m c main_arg0 (((cfg0.win 0).blk t).view.emb (ix3 p a k)) = V m c main_arg0 (ix3 b a k)
  refine congrArg (V m c main_arg0) (funext fun d => Fin.ext ?_)
  match d with
  | ⟨0, _⟩ => show win0_0.index t (0 : Fin 3) * 512 + 1 * p.val = b.val; omega
  | ⟨1, _⟩ => show win0_0.index t (1 : Fin 3) * 2 + 1 * a.val = a.val; omega
  | ⟨2, _⟩ => show win0_0.index t (2 : Fin 3) * 10 + 1 * k.val = k.val; omega

/-- The weight vector's block is the whole vector. -/
theorem quad_blk (c : Dev nD) (t : Fin cfg0.N) : (iblk m c 1 t : Vec Ideal S13 .f32) = V m c main_arg1 := by
  obtain ⟨e1, -⟩ := idx_whole t
  funext y
  show V m c main_arg1 (((cfg0.win 1).blk t).view.emb y) = V m c main_arg1 y
  refine congrArg (V m c main_arg1) (funext fun d => Fin.ext ?_)
  match d with
  | ⟨0, _⟩ => show win0_1.index t (0 : Fin 1) * 13 + 1 * (y 0).val = (y 0).val; omega

/-- Each weight matrix's block is the whole matrix. -/
theorem w11_blk (c : Dev nD) (t : Fin cfg0.N) : (iblk m c 2 t : Vec Ideal S13x10 .f32) = V m c main_arg2 := by
  obtain ⟨-, e0, e1, -⟩ := idx_whole t
  funext y
  show V m c main_arg2 (((cfg0.win 2).blk t).view.emb y) = V m c main_arg2 y
  refine congrArg (V m c main_arg2) (funext fun d => Fin.ext ?_)
  match d with
  | ⟨0, _⟩ => show win0_2.index t (0 : Fin 2) * 13 + 1 * (y 0).val = (y 0).val; omega
  | ⟨1, _⟩ => show win0_2.index t (1 : Fin 2) * 10 + 1 * (y 1).val = (y 1).val; omega

theorem w12_blk (c : Dev nD) (t : Fin cfg0.N) : (iblk m c 3 t : Vec Ideal S13x10 .f32) = V m c main_arg3 := by
  obtain ⟨-, -, -, e0, e1, -⟩ := idx_whole t
  funext y
  show V m c main_arg3 (((cfg0.win 3).blk t).view.emb y) = V m c main_arg3 y
  refine congrArg (V m c main_arg3) (funext fun d => Fin.ext ?_)
  match d with
  | ⟨0, _⟩ => show win0_3.index t (0 : Fin 2) * 13 + 1 * (y 0).val = (y 0).val; omega
  | ⟨1, _⟩ => show win0_3.index t (1 : Fin 2) * 10 + 1 * (y 1).val = (y 1).val; omega

theorem w21_blk (c : Dev nD) (t : Fin cfg0.N) : (iblk m c 4 t : Vec Ideal S13x10 .f32) = V m c main_arg4 := by
  obtain ⟨-, -, -, -, -, e0, e1, -⟩ := idx_whole t
  funext y
  show V m c main_arg4 (((cfg0.win 4).blk t).view.emb y) = V m c main_arg4 y
  refine congrArg (V m c main_arg4) (funext fun d => Fin.ext ?_)
  match d with
  | ⟨0, _⟩ => show win0_4.index t (0 : Fin 2) * 13 + 1 * (y 0).val = (y 0).val; omega
  | ⟨1, _⟩ => show win0_4.index t (1 : Fin 2) * 10 + 1 * (y 1).val = (y 1).val; omega

theorem w22_blk (c : Dev nD) (t : Fin cfg0.N) : (iblk m c 5 t : Vec Ideal S13x10 .f32) = V m c main_arg5 := by
  obtain ⟨-, -, -, -, -, -, -, e0, e1, -⟩ := idx_whole t
  funext y
  show V m c main_arg5 (((cfg0.win 5).blk t).view.emb y) = V m c main_arg5 y
  refine congrArg (V m c main_arg5) (funext fun d => Fin.ext ?_)
  match d with
  | ⟨0, _⟩ => show win0_5.index t (0 : Fin 2) * 13 + 1 * (y 0).val = (y 0).val; omega
  | ⟨1, _⟩ => show win0_5.index t (1 : Fin 2) * 10 + 1 * (y 1).val = (y 1).val; omega

/-- The tables' block is the whole array of tables. -/
theorem tables_blk (c : Dev nD) (t : Fin cfg0.N) : (iblk m c 6 t : Vec Ideal S2x10x13 .f32) = V m c main_arg6 := by
  obtain ⟨-, -, -, -, -, -, -, -, -, e0, e1, e2⟩ := idx_whole t
  funext y
  show V m c main_arg6 (((cfg0.win 6).blk t).view.emb y) = V m c main_arg6 y
  refine congrArg (V m c main_arg6) (funext fun d => Fin.ext ?_)
  match d with
  | ⟨0, _⟩ => show win0_6.index t (0 : Fin 3) * 2 + 1 * (y 0).val = (y 0).val; omega
  | ⟨1, _⟩ => show win0_6.index t (1 : Fin 3) * 10 + 1 * (y 1).val = (y 1).val; omega
  | ⟨2, _⟩ => show win0_6.index t (2 : Fin 3) * 13 + 1 * (y 2).val = (y 2).val; omega

/-- A point's rows stay inside the batch. -/
theorem row_lt (t : Fin cfg0.N) (p : Fin 512) : t.val * 512 + p.val < 524288 := by
  have hN : grid0.N = 1024 := N_0
  have ht : t.val < grid0.N := t.isLt
  have hp := p.isLt
  omega

/-! ## What each point writes back -/

/-- Point t writes back block t of the derivatives of the whole argument arrays. -/
theorem flushed_nx (c : Dev nD) (t : Fin cfg0.N) :
    (dats m 0 c).flushed 7 t = ((cfg0.win 7).blk t).view.read (Elt Ideal)
      (nxArr (V m c main_arg0) (V m c main_arg2) (V m c main_arg3) (V m c main_arg4) (V m c main_arg5) (V m c main_arg6)) := by
  rw [Cert.KernelIdeal.Value.flushed7]
  funext j
  obtain ⟨p, a, n, g, rfl⟩ : ∃ (p : Fin 512) (a : Fin 2) (n : Fin 10) (g : Fin 13), j = ix4 p a n g :=
    ⟨j 0, j 1, j 2, j 3, eq_ix4 j⟩
  obtain ⟨e0, e1, e2, e3⟩ := idx_nx t
  show out0_7 (iblk m c 0 t) (iblk m c 1 t) (iblk m c 2 t) (iblk m c 3 t) (iblk m c 4 t) (iblk m c 5 t) (iblk m c 6 t) (ix4 p a n g)
    = nxArr (V m c main_arg0) (V m c main_arg2) (V m c main_arg3) (V m c main_arg4) (V m c main_arg5) (V m c main_arg6)
        (((cfg0.win 7).blk t).view.emb (ix4 p a n g))
  refine (Body.out7_apply (iblk m c 0 t) (iblk m c 1 t) (iblk m c 2 t) (iblk m c 3 t) (iblk m c 4 t) (iblk m c 5 t)
    (iblk m c 6 t) (ix4 p a n g)).trans ?_
  rw [w11_blk m c t, w12_blk m c t, w21_blk m c t, w22_blk m c t, tables_blk m c t]
  have he : ((cfg0.win 7).blk t).view.emb (ix4 p a n g) = ix4 (⟨t.val * 512 + p.val, row_lt t p⟩ : Fin 524288) a n g :=
    funext fun d => Fin.ext (by
      match d with
      | ⟨0, _⟩ => show win0_7.index t (0 : Fin 4) * 512 + 1 * p.val = t.val * 512 + p.val; omega
      | ⟨1, _⟩ => show win0_7.index t (1 : Fin 4) * 2 + 1 * a.val = a.val; omega
      | ⟨2, _⟩ => show win0_7.index t (2 : Fin 4) * 10 + 1 * n.val = n.val; omega
      | ⟨3, _⟩ => show win0_7.index t (3 : Fin 4) * 13 + 1 * g.val = g.val; omega)
  rw [he]
  exact rows_nx (iblk m c 0 t) (V m c main_arg0) (V m c main_arg2) (V m c main_arg3) (V m c main_arg4) (V m c main_arg5)
    (V m c main_arg6) p ⟨t.val * 512 + p.val, row_lt t p⟩ (fun a k => coords_blk m c t p a k _ rfl) a n g

/-- Point t writes back block t of the weighted determinants of the whole argument arrays. -/
theorem flushed_detwei (c : Dev nD) (t : Fin cfg0.N) :
    (dats m 0 c).flushed 8 t = ((cfg0.win 8).blk t).view.read (Elt Ideal)
      (detweiArr (V m c main_arg0) (V m c main_arg1) (V m c main_arg2) (V m c main_arg3) (V m c main_arg4) (V m c main_arg5)) := by
  rw [Cert.KernelIdeal.Value.flushed8]
  funext j
  obtain ⟨p, g, rfl⟩ : ∃ (p : Fin 512) (g : Fin 13), j = ix2 p g := ⟨j 0, j 1, eq_ix2 j⟩
  obtain ⟨e0, e1⟩ := idx_detwei t
  show out0_8 (iblk m c 0 t) (iblk m c 1 t) (iblk m c 2 t) (iblk m c 3 t) (iblk m c 4 t) (iblk m c 5 t) (iblk m c 6 t) (ix2 p g)
    = detweiArr (V m c main_arg0) (V m c main_arg1) (V m c main_arg2) (V m c main_arg3) (V m c main_arg4) (V m c main_arg5)
        (((cfg0.win 8).blk t).view.emb (ix2 p g))
  refine (Body.out8_apply (iblk m c 0 t) (iblk m c 1 t) (iblk m c 2 t) (iblk m c 3 t) (iblk m c 4 t) (iblk m c 5 t)
    (iblk m c 6 t) p g).trans ?_
  rw [quad_blk m c t, w11_blk m c t, w12_blk m c t, w21_blk m c t, w22_blk m c t]
  have he : ((cfg0.win 8).blk t).view.emb (ix2 p g) = ix2 (⟨t.val * 512 + p.val, row_lt t p⟩ : Fin 524288) g :=
    funext fun d => Fin.ext (by
      match d with
      | ⟨0, _⟩ => show win0_8.index t (0 : Fin 2) * 512 + 1 * p.val = t.val * 512 + p.val; omega
      | ⟨1, _⟩ => show win0_8.index t (1 : Fin 2) * 13 + 1 * g.val = g.val; omega)
  rw [he]
  exact rows_detwei (iblk m c 0 t) (V m c main_arg0) (V m c main_arg1) (V m c main_arg2) (V m c main_arg3) (V m c main_arg4)
    (V m c main_arg5) p ⟨t.val * 512 + p.val, row_lt t p⟩ (fun a k => coords_blk m c t p a k _ rfl) g

/-! ## The blocks cover the result arrays -/

theorem mem_blk_nx (t : Fin cfg0.N) (i : S524288x2x10x13.Idx) :
    i ∈ ((cfg0.win 7).blk t).view.set ↔ ∀ a : Fin 4, win0_7.index t a * S512x2x10x13.size a ≤ (i a).val
      ∧ (i a).val < win0_7.index t a * S512x2x10x13.size a + S512x2x10x13.size a := by
  show i ∈ ((View.whole main_v0_0).slice (win0_7.rect t)).set ↔ _
  rw [View.set_slice_whole, Rect.mem_set_unit]
  exact Iff.rfl

theorem mem_blk_detwei (t : Fin cfg0.N) (i : S524288x13.Idx) :
    i ∈ ((cfg0.win 8).blk t).view.set ↔ ∀ a : Fin 2, win0_8.index t a * S512x13.size a ≤ (i a).val
      ∧ (i a).val < win0_8.index t a * S512x13.size a + S512x13.size a := by
  show i ∈ ((View.whole main_v0_1).slice (win0_8.rect t)).set ↔ _
  rw [View.set_slice_whole, Rect.mem_set_unit]
  exact Iff.rfl

/-- The point that works on batch row r. -/
theorem point_of_row (r : ℕ) (hr : r < 524288) : ∃ t : Fin cfg0.N, t.val = r / 512 :=
  ⟨⟨r / 512, by have hN : grid0.N = 1024 := N_0; show r / 512 < grid0.N; omega⟩, rfl⟩

/-- Every entry of the derivative result lies in the block of the point its batch row belongs to. -/
theorem cover_nx (i : S524288x2x10x13.Idx) :
    ∃ t : Fin cfg0.N, (cfg0.win 7).flush t = true ∧ i ∈ ((cfg0.win 7).blk t).view.set := by
  have h0 : (i 0).val < 524288 := (i 0).isLt
  have h1 : (i 1).val < 2 := (i 1).isLt
  have h2 : (i 2).val < 10 := (i 2).isLt
  have h3 : (i 3).val < 13 := (i 3).isLt
  obtain ⟨t, ht⟩ := point_of_row (i 0).val h0
  obtain ⟨e0, e1, e2, e3⟩ := idx_nx t
  refine ⟨t, flush0_7 t, ?_⟩
  rw [mem_blk_nx]
  intro a
  match a with
  | ⟨0, _⟩ => show win0_7.index t (0 : Fin 4) * 512 ≤ (i 0).val ∧ (i 0).val < win0_7.index t (0 : Fin 4) * 512 + 512; omega
  | ⟨1, _⟩ => show win0_7.index t (1 : Fin 4) * 2 ≤ (i 1).val ∧ (i 1).val < win0_7.index t (1 : Fin 4) * 2 + 2; omega
  | ⟨2, _⟩ => show win0_7.index t (2 : Fin 4) * 10 ≤ (i 2).val ∧ (i 2).val < win0_7.index t (2 : Fin 4) * 10 + 10; omega
  | ⟨3, _⟩ => show win0_7.index t (3 : Fin 4) * 13 ≤ (i 3).val ∧ (i 3).val < win0_7.index t (3 : Fin 4) * 13 + 13; omega

/-- Every entry of the weighted-determinant result lies in the block of the point its batch row belongs to. -/
theorem cover_detwei (i : S524288x13.Idx) :
    ∃ t : Fin cfg0.N, (cfg0.win 8).flush t = true ∧ i ∈ ((cfg0.win 8).blk t).view.set := by
  have h0 : (i 0).val < 524288 := (i 0).isLt
  have h1 : (i 1).val < 13 := (i 1).isLt
  obtain ⟨t, ht⟩ := point_of_row (i 0).val h0
  obtain ⟨e0, e1⟩ := idx_detwei t
  refine ⟨t, flush0_8 t, ?_⟩
  rw [mem_blk_detwei]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 13 ≤ (i 1).val ∧ (i 1).val < win0_8.index t (1 : Fin 2) * 13 + 13; omega

/-! ## The result arrays after the run -/

theorem final_nx (c : Dev nD) :
    (dats m 0 c).arrAt 7 cfg0.N
      = nxArr (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) :=
  (dats m 0 c).arrAt_eq_of_cover 7 _ (fun t _ => flushed_nx m c t) cover_nx

theorem final_detwei (c : Dev nD) :
    (dats m 0 c).arrAt 8 cfg0.N
      = detweiArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 8 _ (fun t _ => flushed_detwei m c t) cover_detwei

/-- The kernel's run: both result arrays end at the specification's arrays of the argument arrays, the arguments
    unchanged. -/
theorem run : θ_run defs (onTc (τ := τ) (main (F := Ideal))) ⟨m, fun _ => 0, ρ⟩ fun r => ∀ c : Dev nD,
      r.2.mem ((c : Thread nD τ).loc main_v0_0)
        = nxArr (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c : Thread nD τ).loc main_v0_1)
        = detweiArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_nx m c), (h c).2.1.trans (final_detwei m c), (h c).2.2⟩)
    (Cert.KernelIdeal.Value.run_blocks m ρ)

end Cert.KernelIdeal.Arrays

end
-- ==== Proof.RefStages.lean ====
/-
  The reference, read entry by entry on the extended reals.

  The reference computes over the whole batch at once what the specification says per element: it cuts the x rows
  and the y rows out of the coordinate array, contracts each with a weight matrix along the ten nodes (a sum of ten
  products), forms the determinant, its reciprocal and the four entries of the inverse Jacobian, spreads those over the
  nodes and the two derivative tables over the batch, and joins the two directions along a new axis. Each lemma below
  reads one of these values at coordinates; a reshape, a slice and a broadcast only rename coordinates. The last two
  lemmas say that the two results are the specification's arrays.
-/
import proofs.«156293_j53515292508349_2_alg».proof.Proof.Gen.ReferenceIdeal.Read
import proofs.«156293_j53515292508349_2_alg».proof.Proof.Spec

noncomputable section

namespace Cert.ReferenceIdeal.Stages

open Cert.ReferenceIdeal Cert.ReferenceIdeal.Gen Cert.ReferenceIdeal.Read Cert.DetNlx
open Idealize.ShloMosaic Idealize.ShloMosaic.ValueIdx

/-! ## The coordinate rows -/

/-- The x rows: entry (b, k) is the coordinate array's entry (b, 0, k). -/
theorem xrows_apply (X : FVec Ideal S524288x2x10 .f32) (b : Fin 524288) (k : Fin 10) :
    val_main_v1 (F := Ideal) X (ix2 b k) = X (ix3 b (0 : Fin 2) k) := by
  rw [val_main_v1_apply, val_main_v0_apply]
  refine congrArg X (funext fun d => Fin.ext ?_)
  have hk := k.isLt
  match d with
  | ⟨0, _⟩ => show (b.val * 10 + k.val) / 10 = b.val; omega
  | ⟨1, _⟩ => rfl
  | ⟨2, _⟩ => show (b.val * 10 + k.val) % 10 = k.val; omega

/-- The y rows: entry (b, k) is the coordinate array's entry (b, 1, k). -/
theorem yrows_apply (X : FVec Ideal S524288x2x10 .f32) (b : Fin 524288) (k : Fin 10) :
    val_main_v3 (F := Ideal) X (ix2 b k) = X (ix3 b (1 : Fin 2) k) := by
  rw [val_main_v3_apply, val_main_v2_apply]
  refine congrArg X (funext fun d => Fin.ext ?_)
  have hk := k.isLt
  match d with
  | ⟨0, _⟩ => show (b.val * 10 + k.val) / 10 = b.val; omega
  | ⟨1, _⟩ => rfl
  | ⟨2, _⟩ => show (b.val * 10 + k.val) % 10 = k.val; omega

/-! ## The four Jacobian entries -/

theorem j11_apply (X : FVec Ideal S524288x2x10 .f32) (W : FVec Ideal S13x10 .f32) (b : Fin 524288) (g : Fin 13) :
    val_main_v4 (F := Ideal) X W (ix2 b g) = jac (elemOf X b 0) (weightsOf W) g := by
  rw [val_main_v4_apply]
  unfold jac
  refine Finset.sum_congr rfl fun k _ => ?_
  have e1 : lidx_main_v4 (ix2 b g) k = ix2 b k := funext fun d => match d with | ⟨0, _⟩ => rfl | ⟨1, _⟩ => rfl
  have e2 : ridx_main_v4 (ix2 b g) k = ix2 g k := funext fun d => match d with | ⟨0, _⟩ => rfl | ⟨1, _⟩ => rfl
  rw [e1, e2, xrows_apply]
  rfl

theorem j12_apply (X : FVec Ideal S524288x2x10 .f32) (W : FVec Ideal S13x10 .f32) (b : Fin 524288) (g : Fin 13) :
    val_main_v5 (F := Ideal) X W (ix2 b g) = jac (elemOf X b 1) (weightsOf W) g := by
  rw [val_main_v5_apply]
  unfold jac
  refine Finset.sum_congr rfl fun k _ => ?_
  have e1 : lidx_main_v5 (ix2 b g) k = ix2 b k := funext fun d => match d with | ⟨0, _⟩ => rfl | ⟨1, _⟩ => rfl
  have e2 : ridx_main_v5 (ix2 b g) k = ix2 g k := funext fun d => match d with | ⟨0, _⟩ => rfl | ⟨1, _⟩ => rfl
  rw [e1, e2, yrows_apply]
  rfl

theorem j21_apply (X : FVec Ideal S524288x2x10 .f32) (W : FVec Ideal S13x10 .f32) (b : Fin 524288) (g : Fin 13) :
    val_main_v6 (F := Ideal) X W (ix2 b g) = jac (elemOf X b 0) (weightsOf W) g := by
  rw [val_main_v6_apply]
  unfold jac
  refine Finset.sum_congr rfl fun k _ => ?_
  have e1 : lidx_main_v6 (ix2 b g) k = ix2 b k := funext fun d => match d with | ⟨0, _⟩ => rfl | ⟨1, _⟩ => rfl
  have e2 : ridx_main_v6 (ix2 b g) k = ix2 g k := funext fun d => match d with | ⟨0, _⟩ => rfl | ⟨1, _⟩ => rfl
  rw [e1, e2, xrows_apply]
  rfl

theorem j22_apply (X : FVec Ideal S524288x2x10 .f32) (W : FVec Ideal S13x10 .f32) (b : Fin 524288) (g : Fin 13) :
    val_main_v7 (F := Ideal) X W (ix2 b g) = jac (elemOf X b 1) (weightsOf W) g := by
  rw [val_main_v7_apply]
  unfold jac
  refine Finset.sum_congr rfl fun k _ => ?_
  have e1 : lidx_main_v7 (ix2 b g) k = ix2 b k := funext fun d => match d with | ⟨0, _⟩ => rfl | ⟨1, _⟩ => rfl
  have e2 : ridx_main_v7 (ix2 b g) k = ix2 g k := funext fun d => match d with | ⟨0, _⟩ => rfl | ⟨1, _⟩ => rfl
  rw [e1, e2, yrows_apply]
  rfl

/-! ## Determinant, reciprocal, inverse Jacobian, weighted determinant -/

section Pointwise
variable (X : FVec Ideal S524288x2x10 .f32) (W11 W12 W21 W22 : FVec Ideal S13x10 .f32) (b : Fin 524288) (g : Fin 13)

theorem det_apply :
    val_main_v10 (F := Ideal) X W11 W12 W21 W22 (ix2 b g)
      = det (elemOf X b) (weightsOf W11) (weightsOf W12) (weightsOf W21) (weightsOf W22) g := by
  rw [val_main_v10_apply, val_main_v8_apply, val_main_v9_apply, j11_apply, j22_apply, j21_apply, j12_apply]
  rfl

theorem invdet_apply :
    val_main_v12 (F := Ideal) X W11 W12 W21 W22 (ix2 b g)
      = invdet (elemOf X b) (weightsOf W11) (weightsOf W12) (weightsOf W21) (weightsOf W22) g := by
  rw [val_main_v12_apply, val_main_v11_apply, val_main_cst_apply, det_apply]
  rfl

theorem inv11_apply :
    val_main_v17 (F := Ideal) X W11 W12 W21 W22 (ix2 b g)
      = jac (elemOf X b 1) (weightsOf W22) g
        * invdet (elemOf X b) (weightsOf W11) (weightsOf W12) (weightsOf W21) (weightsOf W22) g := by
  rw [val_main_v17_apply, j22_apply, invdet_apply]
  rfl

theorem inv12_apply :
    val_main_v20 (F := Ideal) X W11 W12 W21 W22 (ix2 b g)
      = -(jac (elemOf X b 1) (weightsOf W12) g)
        * invdet (elemOf X b) (weightsOf W11) (weightsOf W12) (weightsOf W21) (weightsOf W22) g := by
  rw [val_main_v20_apply, val_main_v19_apply, j12_apply, invdet_apply]
  rfl

theorem inv21_apply :
    val_main_v23 (F := Ideal) X W11 W12 W21 W22 (ix2 b g)
      = -(jac (elemOf X b 0) (weightsOf W21) g)
        * invdet (elemOf X b) (weightsOf W11) (weightsOf W12) (weightsOf W21) (weightsOf W22) g := by
  rw [val_main_v23_apply, val_main_v22_apply, j21_apply, invdet_apply]
  rfl

theorem inv22_apply :
    val_main_v25 (F := Ideal) X W11 W12 W21 W22 (ix2 b g)
      = jac (elemOf X b 0) (weightsOf W11) g
        * invdet (elemOf X b) (weightsOf W11) (weightsOf W12) (weightsOf W21) (weightsOf W22) g := by
  rw [val_main_v25_apply, j11_apply, invdet_apply]
  rfl

/-- The weighted determinant: the weight vector, given a unit batch axis and repeated over the batch, is read at g. -/
theorem detwei_apply (Wt : FVec Ideal S13 .f32) :
    val_main_v16 (F := Ideal) X Wt W11 W12 W21 W22 (ix2 b g)
      = detwei (elemOf X b) (weightsOf W11) (weightsOf W12) (weightsOf W21) (weightsOf W22) (quadOf Wt) g := by
  rw [val_main_v16_apply, val_main_v13_apply, val_main_v15_apply, val_main_v14_apply, det_apply]
  have e : idx_main_v14 (idx_main_v15 (ix2 b g)) = ix1 g := funext fun d => match d with | ⟨0, _⟩ => rfl
  rw [e]
  rfl

end Pointwise

/-! ## The derivative tables -/

/-- The first table with its unit batch axis: plane 0 of the tables. -/
theorem tableFirst_apply (N : FVec Ideal S2x10x13 .f32) (u : Fin 1) (n : Fin 10) (g : Fin 13) :
    val_main_v29 (F := Ideal) N (ix3 u n g) = N (ix3 (0 : Fin 2) n g) := by
  rw [val_main_v29_apply, val_main_v28_apply, val_main_v27_apply]
  refine congrArg N (funext fun d => Fin.ext ?_)
  have hn := n.isLt
  have hg := g.isLt
  match d with
  | ⟨0, _⟩ => rfl
  | ⟨1, _⟩ => show (n.val * 13 + g.val) / 13 % 10 = n.val; omega
  | ⟨2, _⟩ => show (n.val * 13 + g.val) % 13 = g.val; omega

/-- The second table with its unit batch axis: plane 1 of the tables. -/
theorem tableSecond_apply (N : FVec Ideal S2x10x13 .f32) (u : Fin 1) (n : Fin 10) (g : Fin 13) :
    val_main_v32 (F := Ideal) N (ix3 u n g) = N (ix3 (1 : Fin 2) n g) := by
  rw [val_main_v32_apply, val_main_v31_apply, val_main_v30_apply]
  refine congrArg N (funext fun d => Fin.ext ?_)
  have hn := n.isLt
  have hg := g.isLt
  match d with
  | ⟨0, _⟩ => rfl
  | ⟨1, _⟩ => show (n.val * 13 + g.val) / 13 % 10 = n.val; omega
  | ⟨2, _⟩ => show (n.val * 13 + g.val) % 13 = g.val; omega

/-! ## The inverse Jacobian applied to the tables -/

section Directions
variable (X : FVec Ideal S524288x2x10 .f32) (W11 W12 W21 W22 : FVec Ideal S13x10 .f32) (N : FVec Ideal S2x10x13 .f32)
  (b : Fin 524288) (n : Fin 10) (g : Fin 13)

/-- A coefficient spread over the nodes is read at its batch element and quadrature point. -/
theorem spreadCoeff : idx_main_v18 (idx_main_v33 (ix3 b n g)) = ix2 b g :=
  funext fun d => match d with | ⟨0, _⟩ => rfl | ⟨1, _⟩ => rfl

/-- A table spread over the batch is read at its node and quadrature point. -/
theorem spreadTable : idx_main_v34 (ix3 b n g) = ix3 (0 : Fin 1) n g :=
  funext fun d => match d with | ⟨0, _⟩ => rfl | ⟨1, _⟩ => rfl | ⟨2, _⟩ => rfl

theorem nxFirst_apply :
    val_main_v39 (F := Ideal) X W11 W12 W21 W22 N (ix3 b n g)
      = nxFirst (elemOf X b) (weightsOf W11) (weightsOf W12) (weightsOf W21) (weightsOf W22) (tablesOf N) n g := by
  rw [val_main_v39_apply, val_main_v35_apply, val_main_v38_apply, val_main_v33_apply, val_main_v34_apply,
    val_main_v36_apply, val_main_v37_apply, val_main_v18_apply, val_main_v21_apply]
  have e1 : idx_main_v21 (idx_main_v36 (ix3 b n g)) = ix2 b g :=
    funext fun d => match d with | ⟨0, _⟩ => rfl | ⟨1, _⟩ => rfl
  have e2 : idx_main_v37 (ix3 b n g) = ix3 (0 : Fin 1) n g :=
    funext fun d => match d with | ⟨0, _⟩ => rfl | ⟨1, _⟩ => rfl | ⟨2, _⟩ => rfl
  rw [spreadCoeff, spreadTable, e1, e2, inv11_apply, inv12_apply, tableFirst_apply, tableSecond_apply]
  rfl

theorem nxSecond_apply :
    val_main_v46 (F := Ideal) X W11 W12 W21 W22 N (ix3 b n g)
      = nxSecond (elemOf X b) (weightsOf W11) (weightsOf W12) (weightsOf W21) (weightsOf W22) (tablesOf N) n g := by
  rw [val_main_v46_apply, val_main_v42_apply, val_main_v45_apply, val_main_v40_apply, val_main_v41_apply,
    val_main_v43_apply, val_main_v44_apply, val_main_v24_apply, val_main_v26_apply]
  have e1 : idx_main_v24 (idx_main_v40 (ix3 b n g)) = ix2 b g :=
    funext fun d => match d with | ⟨0, _⟩ => rfl | ⟨1, _⟩ => rfl
  have e2 : idx_main_v41 (ix3 b n g) = ix3 (0 : Fin 1) n g :=
    funext fun d => match d with | ⟨0, _⟩ => rfl | ⟨1, _⟩ => rfl | ⟨2, _⟩ => rfl
  have e3 : idx_main_v26 (idx_main_v43 (ix3 b n g)) = ix2 b g :=
    funext fun d => match d with | ⟨0, _⟩ => rfl | ⟨1, _⟩ => rfl
  have e4 : idx_main_v44 (ix3 b n g) = ix3 (0 : Fin 1) n g :=
    funext fun d => match d with | ⟨0, _⟩ => rfl | ⟨1, _⟩ => rfl | ⟨2, _⟩ => rfl
  rw [e1, e2, e3, e4, inv21_apply, inv22_apply, tableFirst_apply, tableSecond_apply]
  rfl

end Directions

/-! ## The two results -/

/-- The weighted determinants are the specification's array. -/
theorem detwei_eq (X : FVec Ideal S524288x2x10 .f32) (Wt : FVec Ideal S13 .f32) (W11 W12 W21 W22 : FVec Ideal S13x10 .f32) :
    val_main_v16 (F := Ideal) X Wt W11 W12 W21 W22 = detweiArr X Wt W11 W12 W21 W22 := by
  funext i
  obtain ⟨b, g, rfl⟩ : ∃ (b : Fin 524288) (g : Fin 13), i = ix2 b g := ⟨i 0, i 1, eq_ix2 i⟩
  exact detwei_apply X W11 W12 W21 W22 b g Wt

/-- The two directions joined along the second axis are the specification's array: direction 0 reads the first
    operand of the join, direction 1 the second, each with a unit direction axis. -/
theorem nx_eq (X : FVec Ideal S524288x2x10 .f32) (W11 W12 W21 W22 : FVec Ideal S13x10 .f32) (N : FVec Ideal S2x10x13 .f32) :
    val_main_v49 (F := Ideal) X W11 W12 W21 W22 N = nxArr X W11 W12 W21 W22 N := by
  funext i
  obtain ⟨b, a, n, g, rfl⟩ : ∃ (b : Fin 524288) (a : Fin 2) (n : Fin 10) (g : Fin 13), i = ix4 b a n g :=
    ⟨i 0, i 1, i 2, i 3, eq_ix4 i⟩
  rw [Cert.DetNlx.nxArr_apply]
  unfold val_main_v49 nx
  have e47 : idx_main_v47 (ix4 b (0 : Fin 1) n g) = ix3 b n g :=
    funext fun d => match d with | ⟨0, _⟩ => rfl | ⟨1, _⟩ => rfl | ⟨2, _⟩ => rfl
  have e48 : idx_main_v48 (ix4 b (0 : Fin 1) n g) = ix3 b n g :=
    funext fun d => match d with | ⟨0, _⟩ => rfl | ⟨1, _⟩ => rfl | ⟨2, _⟩ => rfl
  by_cases ha : a.val = 0
  · rw [if_pos ha]
    refine (concatenate_pair_apply_left (t := S524288x2x10x13) (s₁ := S524288x1x10x13) (s₂ := S524288x1x10x13) _ _ _ _
      (ix4 b a n g) rfl (ix4 b (0 : Fin 1) n g) (fun d => ?_)).trans ?_
    · match d with
      | ⟨0, _⟩ => rfl
      | ⟨1, _⟩ => exact ha.symm
      | ⟨2, _⟩ => rfl
      | ⟨3, _⟩ => rfl
    · rw [val_main_v47_apply, e47, nxFirst_apply]
  · have ha1 : a.val = 1 := by omega
    rw [if_neg ha]
    refine (concatenate_pair_apply_right (t := S524288x2x10x13) (s₁ := S524288x1x10x13) (s₂ := S524288x1x10x13) _ _ _ _
      (ix4 b a n g) rfl rfl (ix4 b (0 : Fin 1) n g) (fun d hd => ?_) ?_).trans ?_
    · match d with
      | ⟨0, _⟩ => rfl
      | ⟨1, _⟩ => exact absurd (Fin.ext rfl) hd
      | ⟨2, _⟩ => rfl
      | ⟨3, _⟩ => rfl
    · show 0 + 1 = a.val
      omega
    · rw [val_main_v48_apply, e48, nxSecond_apply]

end Cert.ReferenceIdeal.Stages

end
-- ==== Proof.lean ====
/-
  The proof of the certificate's claim: the kernel and its reference compute the same two arrays on the extended reals.

  Both programs form, for every batch element, the four Jacobian entries (dot products of its coordinate rows with
  the rows of four weight matrices), the determinant, its reciprocal, the weighted absolute determinant, and the
  inverse Jacobian applied to two derivative tables (Spec.lean states these as one function per entry). The kernel
  works block by block over 1024 grid points and stores the two directions of the derivative block separately
  (KernelBody.lean reads its body, KernelArrays.lean puts the blocks together); the reference works on the whole
  batch and joins the two directions (RefStages.lean). The two spellings differ only in how a negative is written
  (0 - j against -j: equal on every extended real) and in how a matrix product from zero is written (both the plain
  sum of ten products), so no finiteness of the inputs is used. The frames are the generated ones; the idealization
  rewrote nothing, so it preserves the kernel trivially.
-/
import proofs.«156293_j53515292508349_2_alg».proof.Defs
import proofs.«156293_j53515292508349_2_alg».proof.Proof.Gen.Kernel
import proofs.«156293_j53515292508349_2_alg».proof.Proof.Gen.Kernel.Skeleton
import proofs.«156293_j53515292508349_2_alg».proof.Proof.Gen.Kernel.Launch
import proofs.«156293_j53515292508349_2_alg».proof.Proof.Gen.Kernel.Points
import proofs.«156293_j53515292508349_2_alg».proof.Proof.Gen.Kernel.Frame
import proofs.«156293_j53515292508349_2_alg».proof.Proof.Gen.KernelIdeal
import proofs.«156293_j53515292508349_2_alg».proof.Proof.Gen.KernelIdeal.Skeleton
import proofs.«156293_j53515292508349_2_alg».proof.Proof.Gen.KernelIdeal.Launch
import proofs.«156293_j53515292508349_2_alg».proof.Proof.Gen.KernelIdeal.Points
import proofs.«156293_j53515292508349_2_alg».proof.Proof.Gen.KernelIdeal.Frame
import proofs.«156293_j53515292508349_2_alg».proof.Proof.Gen.ReferenceIdeal
import proofs.«156293_j53515292508349_2_alg».proof.Proof.Gen.Pre_finite_inputs
import proofs.«156293_j53515292508349_2_alg».proof.Proof.Gen.KernelIdeal.Value
import proofs.«156293_j53515292508349_2_alg».proof.Proof.Gen.ReferenceIdeal.Run
import proofs.«156293_j53515292508349_2_alg».proof.Proof.Gen.ReferenceIdeal.Read
import proofs.«156293_j53515292508349_2_alg».proof.Proof.KernelArrays
import proofs.«156293_j53515292508349_2_alg».proof.Proof.RefStages
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel :=
  fun m ρ _ => Cert.Kernel.Gen.frame m ρ

/-- The idealized kernel runs and leaves its arguments unchanged. -/
theorem frame_kernelIdeal : Cert.frame_KernelIdeal :=
  fun m ρ _ => Cert.KernelIdeal.Gen.frame m ρ

/-- The reference runs and leaves its arguments unchanged: its run with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the arguments both programs end with the specification's two arrays of those
    arguments: the derivatives and the weighted determinants. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v49_eq, Cert.ReferenceIdeal.Stages.nx_eq, (hagree c).1, (hagree c).2.2.1,
      (hagree c).2.2.2.1, (hagree c).2.2.2.2.1, (hagree c).2.2.2.2.2.1, (hagree c).2.2.2.2.2.2]
  · refine (Cert.ReferenceIdeal.Read.val_main_v16_eq _ _ _ _ _ _).trans ?_
    rw [Cert.ReferenceIdeal.Stages.detwei_eq, (hagree c).1, (hagree c).2.1, (hagree c).2.2.1, (hagree c).2.2.2.1,
      (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
